-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S32x2048x64 : Shape := ⟨3, ![32, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S64x2048 : Shape := ⟨2, ![64, 2048]⟩
abbrev S256x2048 : Shape := ⟨2, ![256, 2048]⟩
abbrev S1x1x256x2048 : Shape := ⟨4, ![1, 1, 256, 2048]⟩

abbrev nBuf : Space → Nat
  | .hbm => 10
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S1x1x2048x2048, .i32⟩
  | .hbm, ⟨8, _⟩ => ⟨S32x2048x64, .f32⟩
  | .hbm, ⟨9, _⟩ => ⟨S2x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1x2048x2048, .i32⟩
  | .local _ .vmem, ⟨7, _⟩ => ⟨S1x256x64, .f32⟩
  | .local _ .vmem, ⟨8, _⟩ => ⟨S1x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v22 : BitVec 32 := Scalar.muli arg1 c256_i32
  v22
def k0_off1 (i : grid0.Coords) : Fin 4 → Nat :=
  let c0_11 : Index := 0#32
  let c0_12 : Index := 0#32
  let arg1 : BitVec 32 := BitVec.ofNat 32 (i 1).val
  let c256_i32 : BitVec 32 := 256#32
  let v22 : BitVec 32 := Scalar.muli arg1 c256_i32
  let v23 : BitVec 32 := v22
  let v24 : Index := Scalar.indexCast v23
  let c0_13 : Index := 0#32
  ![0, 0, v24.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  natLt_1_32 : 1 < 32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x64_S256 : S256x64.Reduces [1] S256
  shapeCasts_S256_S256x1 : S256.ShapeCasts S256x1
  reduces_S2048x64_S2048 : S2048x64.Reduces [1] S2048
  shapeCasts_S2048_S2048x1 : S2048.ShapeCasts S2048x1
  broadcasts_S256x1_S256x64 : S256x1.Broadcasts S256x64
  bitsLt_bf16_f32 : FTy.bits .bf16 < FTy.bits .f32
  broadcasts_S2048x1_S2048x64 : S2048x1.Broadcasts S2048x64
  transposes_S2048x64_p1_0_S64x2048 : S2048x64.Transposes [1, 0] S64x2048
  h_S1x1x256x2048 : 0 < S1x1x256x2048.numel
  shapeCasts_S1x1x256x2048_S256x2048 : S1x1x256x2048.ShapeCasts S256x2048
  shapeCasts_S256x64_S1x256x64 : S256x64.ShapeCasts S1x256x64
  shapeCasts_S32x2048x64_S2x16x2048x64 : S32x2048x64.ShapeCasts S2x16x2048x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x1x256x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S1x1x2048x2048.size a
  hwx0_3 : ∀ i : grid0.Coords, EltTy.bits .i32 = 32 ∨ (Rect.block (s := S1x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x16x2048x2048 : Shape := ⟨4, ![2, 16, 2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i1⟩
  | .hbm, ⟨4, _⟩ => ⟨S2x16x2048x64, .f32⟩
  | .hbm, ⟨5, _⟩ => ⟨S_, .f32⟩
  | .hbm, ⟨6, _⟩ => ⟨S2x16x2048, .f32⟩
  | .hbm, ⟨7, _⟩ => ⟨S2x16x2048x1, .f32⟩
  | .hbm, ⟨8, _⟩ => ⟨S2x16x2048x64, .f32⟩
  | .hbm, ⟨9, _⟩ => ⟨S_, .f32⟩
  | .hbm, ⟨10, _⟩ => ⟨S2x16x2048, .f32⟩
  | .hbm, ⟨11, _⟩ => ⟨S2x16x2048x1, .f32⟩
  | .hbm, ⟨12, _⟩ => ⟨S2x16x2048x64, .f32⟩
  | .hbm, ⟨13, _⟩ => ⟨S2x16x2048x64, .f32⟩
  | .hbm, ⟨14, _⟩ => ⟨S2x16x2048x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048x2048, .i1⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x64_0_1_2_3 : S2x16x2048x1.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Piece.lean ====
/-
  What the body leaves in the output's staging buffer at one grid point: its one store covers the whole buffer,
  so the buffer ends holding the stored value — the body's arithmetic applied to what its four loads read: the
  query block, the key block and the value block whole, and of the mask block the 256 rows that start at the
  row offset the body computes from the point's second coordinate.
-/
import proofs.«163237_j21595095564588_1_alg».proof.Proof.Gen.KernelIdeal.Frame
import Idealize.ShloMosaic.Lib.Pipeline.Value
import Idealize.ShloMosaic.Lib.Tactic

noncomputable section

namespace Cert.KernelIdeal.Piece

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- The rows of the mask block the body loads at grid coordinates `i`. -/
abbrev maskRows (i : grid0.Coords) (x3 : Vec F S1x1x2048x2048 .i32) : Vec F S1x1x256x2048 .i32 :=
  View.ld x3 (Rect.unit (s := S1x1x2048x2048) (k0_off1 i) S1x1x256x2048.size (Facts₀.k0_off1_inb i))

/-- The output's staging buffer after the body: the stored value. -/
theorem out_eq (c : Dev nD) (i : grid0.Coords) (a2 : Memref sig .tc .vmem S1x256x64 .f32) (h2 : a2.IsWhole)
    (a3 : Memref sig .tc .vmem S1x2048x64 .f32) (h3 : a3.IsWhole) (a4 : Memref sig .tc .vmem S1x2048x64 .f32) (h4 : a4.IsWhole)
    (a5 : Memref sig .tc .vmem S1x1x2048x2048 .i32) (h5 : a5.IsWhole) (a6 : Memref sig .tc .vmem S1x256x64 .f32) (h6 : a6.IsWhole)
    (x0 : Vec F S1x256x64 .f32) (x1 : Vec F S1x2048x64 .f32) (x2 : Vec F S1x2048x64 .f32) (x3 : Vec F S1x1x2048x2048 .i32) :
    out0_A_4 c i a2 h2 a3 h3 a4 h4 a5 h5 a6 h6 x0 x1 x2 x3 = k0_pay1 (k0_pay2 x0 x1 x2 (maskRows i x3)) := by
  unfold out0_A_4
  rw [View.read_writes_eq_canon _ _ _ (cover0_A_4 c i a2 h2 a3 h3 a4 h4 a5 h5 a6 h6 x0 x1 x2 x3)]
  unfold kernelRun0_A
  dsimp only
  sl_unfold_words
  rw [View.canon_unit_zero hz3]
  simp only [View.readAt_eq_ld, h2.read_unread, h3.read_unread, h4.read_unread, h5.read_unread,
    View.ld_unit_zero (S := S1x256x64) hz3, View.ld_unit_zero (S := S1x2048x64) hz3]
  rfl

end Cert.KernelIdeal.Piece

end
-- ==== Proof.AttnSpec.lean ====
/-
  Linear attention with L1-normalised queries and keys, one output entry at a time.

  For a query row `q`, the key rows `k j`, one column `v j` of the values and a row `m j` of mask bits, the
  output entry is  Σ_j  w_j · v_j ,  where the weight  w_j  is the scaled score
  (Σ_e  q̂_e · k̂_{j,e}) · (1/8)  where the mask bit is set and the constant -10000 where it is not, and a hatted
  row is the row divided, entry by entry, by the sum of the absolute values of its 64 entries. Nothing is
  assumed finite: every operation is the one on the extended reals.

  The scale is written as a product with the word of 0.125; a quotient by the square root of the word of 64 is
  the same function of every extended real, since that root is the real 8 and 0.125 is exactly 1/8.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The sum of the absolute values of a row's entries. -/
def l1 (r : Fin 64 → EReal) : EReal := ∑ e : Fin 64, max (r e) (-(r e))

/-- Entry `e` of a row divided by the row's L1 norm. -/
def unit1 (r : Fin 64 → EReal) (e : Fin 64) : EReal := Ideal.div (r e) (l1 r)

/-- The scaled score of a query row against a key row. -/
def score (q k : Fin 64 → EReal) : EReal :=
  (∑ e : Fin 64, unit1 q e * unit1 k e) * Ideal.ofBits .f32 0x3E000000#32

/-- The weight of key `j`: its score where the mask bit is set, the constant -10000 elsewhere. -/
def weight (q : Fin 64 → EReal) (k : Fin 2048 → Fin 64 → EReal) (m : Fin 2048 → BitVec 1) (j : Fin 2048) : EReal :=
  Scalar.select (m j) (score q (k j)) (Ideal.ofBits .f32 0xC61C4000#32)

/-- One output entry: the weights against one column of the values. -/
def attn (q : Fin 64 → EReal) (k : Fin 2048 → Fin 64 → EReal) (v : Fin 2048 → EReal) (m : Fin 2048 → BitVec 1) : EReal :=
  ∑ j : Fin 2048, weight q k m j * v j

/-- The word of 64.0 denotes the real 64. -/
theorem ofBits_64 : Ideal.ofBits .f32 0x42800000#32 = ((64 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by the square root of 64 is multiplying by 0.125, on every extended real. -/
theorem div_sqrt_64 (x : EReal) :
    Ideal.div x (Ideal.sqrt (Ideal.ofBits .f32 0x42800000#32)) = x * Ideal.ofBits .f32 0x3E000000#32 := by
  rw [sqrt_64, Ideal.div_coe (by norm_num : (8 : ℝ) ≠ 0), ofBits_eighth]

/-- A mask bit widened to 32 bits is non-zero exactly when the bit is set. -/
theorem ne_zero_widen (b : BitVec 1) : IntOp.cmpi .ne (b.setWidth 32) 0#32 = b := by
  rcases BitVec.eq_zero_or_eq_one b with h | h <;> subst h <;> decide

end Cert.Attn

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«163237_j21595095564588_1_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.Payload.lean ====
/-
  What one grid point computes, entry by entry, over the extended reals.

  At a grid point the body holds a block of 256 query rows, all 2048 key rows and value rows of one (batch, head)
  pair, and the 256 × 2048 block of mask words of its query rows. Entry (p, d) of the 256 × 64 block it produces is
  the attention entry (AttnSpec) of query row p, the key rows, column d of the values and the bits "mask word ≠ 0"
  of row p: the two narrowings to a shorter float format are the identity, each row sum is a plain sum, each of the
  two matrix products into a zero accumulator is a plain sum of products, and the transposed keys read (e, j) at
  (j, e).
-/
import proofs.«163237_j21595095564588_1_alg».proof.Proof.Gen.KernelIdeal.Skeleton
import proofs.«163237_j21595095564588_1_alg».proof.Proof.AttnSpec
import proofs.«163237_j21595095564588_1_alg».proof.Proof.LibPlainDot
import proofs.«163237_j21595095564588_1_alg».proof.Proof.LibColumn
import proofs.«163237_j21595095564588_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen Cert.Attn

/-- Rows of a [1, R, 64] block, each divided by the sum of its absolute values, read at (p, e). -/
theorem unit_rows_apply {R : ℕ} (x : FVec Ideal ⟨3, ![1, R, 64]⟩ .f32)
    (h1 : (⟨3, ![1, R, 64]⟩ : Shape).ShapeCasts ⟨2, ![R, 64]⟩)
    (h2 : (⟨2, ![R, 64]⟩ : Shape).Reduces [(1 : Fin 2)] ⟨1, ![R]⟩)
    (h3 : (⟨1, ![R]⟩ : Shape).ShapeCasts ⟨2, ![R, 1]⟩)
    (h4 : (⟨2, ![R, 1]⟩ : Shape).Broadcasts ⟨2, ![R, 64]⟩)
    (hφ : FKind.Formats .f32) (hacc : (0x00000000#32 : BitVec 32) = FKind.add.neutral .f32 hφ) (p : Fin R) (e : Fin 64) :
    divf (shapeCast ⟨2, ![R, 64]⟩ x h1)
      (broadcastTo ⟨2, ![R, 64]⟩ (shapeCast ⟨2, ![R, 1]⟩
        (multiReduction .add [(1 : Fin 2)] ⟨1, ![R]⟩ (absf (shapeCast ⟨2, ![R, 64]⟩ x h1)) 0x00000000#32 h2 hφ hacc) h3) h4) (ix2 p e)
      = unit1 (fun e => x (ix3 (0 : Fin 1) p e)) e := by
  rw [divf_apply, shapeCast_1ab_ab_apply, Cert.LibRowReduce.column_repeat_apply, Cert.LibRowReduce.rowSum_apply]
  unfold unit1 l1
  refine congrArg _ (Finset.sum_congr rfl fun k _ => ?_)
  show max (shapeCast ⟨2, ![R, 64]⟩ x h1 (ix2 p k)) (-(shapeCast ⟨2, ![R, 64]⟩ x h1 (ix2 p k))) = _
  rw [shapeCast_1ab_ab_apply]

/-- The [1, 1, 256, 2048] block of mask words viewed as a matrix reads (0, 0, p, j) at (p, j). -/
theorem mask_rows_apply (x : IVec ⟨4, ![1, 1, 256, 2048]⟩ 32)
    (h : (⟨4, ![1, 1, 256, 2048]⟩ : Shape).ShapeCasts ⟨2, ![256, 2048]⟩) (p : Fin 256) (j : Fin 2048) :
    shapeCast ⟨2, ![256, 2048]⟩ x h (ix2 p j) = x (ix4 (0 : Fin 1) (0 : Fin 1) p j) :=
  shapeCast_apply x h _ _ (by
    rw [Shape.rowMajor_val_four, Shape.rowMajor_val_two]
    show ((0 * 1 + 0) * 256 + p.val) * 2048 + j.val = p.val * 2048 + j.val
    omega)

/-- The query rows of the block, normalised. -/
def qhat (x0 : FVec Ideal S1x256x64 .f32) : FVec Ideal S256x64 .f32 :=
  divf (shapeCast S256x64 x0 Facts₀.shapeCasts_S1x256x64_S256x64)
    (broadcastTo S256x64 (shapeCast S256x1
      (multiReduction .add [1] S256 (absf (shapeCast S256x64 x0 Facts₀.shapeCasts_S1x256x64_S256x64)) 0x00000000#32 Facts₀.reduces_S256x64_S256 (.inl rfl) rfl)
      Facts₀.shapeCasts_S256_S256x1) Facts₀.broadcasts_S256x1_S256x64)

/-- The key rows, normalised. -/
def khat (x1 : FVec Ideal S1x2048x64 .f32) : FVec Ideal S2048x64 .f32 :=
  divf (shapeCast S2048x64 x1 Facts₀.shapeCasts_S1x2048x64_S2048x64)
    (broadcastTo S2048x64 (shapeCast S2048x1
      (multiReduction .add [1] S2048 (absf (shapeCast S2048x64 x1 Facts₀.shapeCasts_S1x2048x64_S2048x64)) 0x00000000#32 Facts₀.reduces_S2048x64_S2048 (.inl rfl) rfl)
      Facts₀.shapeCasts_S2048_S2048x1) Facts₀.broadcasts_S2048x1_S2048x64)

/-- The scaled scores of the block's query rows against all key rows. -/
def scores (x0 : FVec Ideal S1x256x64 .f32) (x1 : FVec Ideal S1x2048x64 .f32) : FVec Ideal S256x2048 .f32 :=
  mulf (matmul dot_S256x64_S64x2048_S256x2048_1_0_0_1_n_n none (truncf .bf16 (qhat x0) Facts₀.bitsLt_bf16_f32)
      (transpose S64x2048 [1, 0] (truncf .bf16 (khat x1) Facts₀.bitsLt_bf16_f32) Facts₀.transposes_S2048x64_p1_0_S64x2048)
      (constant S256x2048 .f32 0x00000000#32))
    (broadcast S256x2048 (Scalar.ofBits .f32 0x3E000000#32))

/-- The weights: a score where the mask word is not zero, -10000 elsewhere. -/
def weights (x0 : FVec Ideal S1x256x64 .f32) (x1 : FVec Ideal S1x2048x64 .f32) (x25 : IVec S1x1x256x2048 32) :
    FVec Ideal S256x2048 .f32 :=
  select (cmpi .ne (shapeCast S256x2048 x25 Facts₀.shapeCasts_S1x1x256x2048_S256x2048) (constantI S256x2048 32 0#32))
    (scores x0 x1) (broadcast S256x2048 (Scalar.ofBits .f32 0xC61C4000#32))

/-- The body's arithmetic is the weights against the values. -/
theorem pay2_eq (x0 : FVec Ideal S1x256x64 .f32) (x1 x2 : FVec Ideal S1x2048x64 .f32) (x25 : IVec S1x1x256x2048 32) :
    k0_pay2 (F := Ideal) x0 x1 x2 x25
      = matmul dot_S256x2048_S2048x64_S256x64_1_0_0_1_n_n none (truncf .bf16 (weights x0 x1 x25) Facts₀.bitsLt_bf16_f32)
          (truncf .bf16 (shapeCast S2048x64 x2 Facts₀.shapeCasts_S1x2048x64_S2048x64) Facts₀.bitsLt_bf16_f32)
          (constant S256x64 .f32 0x00000000#32) := rfl

theorem qhat_apply (x0 : FVec Ideal S1x256x64 .f32) (p : Fin 256) (e : Fin 64) :
    qhat x0 (ix2 p e) = unit1 (fun e => x0 (ix3 (0 : Fin 1) p e)) e :=
  unit_rows_apply x0 _ _ _ _ _ _ p e

theorem khat_apply (x1 : FVec Ideal S1x2048x64 .f32) (j : Fin 2048) (e : Fin 64) :
    khat x1 (ix2 j e) = unit1 (fun e => x1 (ix3 (0 : Fin 1) j e)) e :=
  unit_rows_apply x1 _ _ _ _ _ _ j e

/-- A score at (p, j): the normalised query row p against the normalised key row j, scaled. -/
theorem scores_apply (x0 : FVec Ideal S1x256x64 .f32) (x1 : FVec Ideal S1x2048x64 .f32) (p : Fin 256) (j : Fin 2048) :
    scores x0 x1 (ix2 p j) = score (fun e => x0 (ix3 (0 : Fin 1) p e)) (fun e => x1 (ix3 (0 : Fin 1) j e)) := by
  unfold scores score
  rw [mulf_apply]
  refine congrArg (· * _) ?_
  refine (Cert.LibPlainDot.matmul_zero_apply _ none _ _ p j).trans (Finset.sum_congr rfl fun e _ => ?_)
  rw [transpose_ix2_apply]
  exact congrArg₂ (· * ·) (qhat_apply x0 p e) (khat_apply x1 j e)

/-- A weight at (p, j). -/
theorem weights_apply (x0 : FVec Ideal S1x256x64 .f32) (x1 : FVec Ideal S1x2048x64 .f32) (x25 : IVec S1x1x256x2048 32)
    (p : Fin 256) (j : Fin 2048) :
    weights x0 x1 x25 (ix2 p j)
      = weight (fun e => x0 (ix3 (0 : Fin 1) p e)) (fun j e => x1 (ix3 (0 : Fin 1) j e))
          (fun j => IntOp.cmpi .ne (x25 (ix4 (0 : Fin 1) (0 : Fin 1) p j)) 0#32) j := by
  unfold weights weight
  rw [select_apply, scores_apply]
  show Scalar.select (IntOp.cmpi .ne (shapeCast S256x2048 x25 Facts₀.shapeCasts_S1x1x256x2048_S256x2048 (ix2 p j)) 0#32) _ _ = _
  rw [mask_rows_apply]
  rfl

/-- THE BLOCK A GRID POINT PRODUCES, at (p, d). -/
theorem pay2_apply (x0 : FVec Ideal S1x256x64 .f32) (x1 x2 : FVec Ideal S1x2048x64 .f32) (x25 : IVec S1x1x256x2048 32)
    (p : Fin 256) (d : Fin 64) :
    k0_pay2 (F := Ideal) x0 x1 x2 x25 (ix2 p d)
      = attn (fun e => x0 (ix3 (0 : Fin 1) p e)) (fun j e => x1 (ix3 (0 : Fin 1) j e)) (fun j => x2 (ix3 (0 : Fin 1) j d))
          (fun j => IntOp.cmpi .ne (x25 (ix4 (0 : Fin 1) (0 : Fin 1) p j)) 0#32) := by
  rw [pay2_eq]
  unfold attn
  refine (Cert.LibPlainDot.matmul_zero_apply _ none _ _ p d).trans (Finset.sum_congr rfl fun j _ => ?_)
  rw [truncf_apply, truncf_apply, weights_apply, shapeCast_1ab_ab_apply]

end Cert.KernelIdeal.Pay

end
-- ==== Proof.GridFacts.lean ====
/-
  The schedule of the 32 × 8 grid, decided point by point: at grid point (g, r) the query window and the output
  window are at block (g, r, 0), the key window and the value window at block (g, 0, 0), the mask window at its
  one block; and every (g, r) is some point's.
-/
import proofs.«163237_j21595095564588_1_alg».proof.Proof.Gen.KernelIdeal.Points

noncomputable section

namespace Cert.KernelIdeal.Blocks

open Idealize.ShloMosaic
open Cert.KernelIdeal Cert.KernelIdeal.Gen

/-- The printed index maps, decided over the 256 grid points. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 4) = 0 ∧ win0_3.index t (1 : Fin 4) = 0 ∧ win0_3.index t (2 : Fin 4) = 0 ∧ win0_3.index t (3 : Fin 4) = 0
    ∧ win0_4.index t (2 : Fin 3) = 0 ∧ win0_4.index t (0 : Fin 3) < 32 ∧ win0_4.index t (1 : Fin 3) < 8
    ∧ ((grid0.coords t) 1).val = win0_4.index t (1 : Fin 3) :=
  (by decide +kernel : ∀ t : Fin grid0.N, _)

/-- Every (pair, row block) is some grid point's. -/
theorem idx_onto : ∀ (g : Fin 32) (r : Fin 8), ∃ t : Fin cfg0.N, win0_4.index t = ![g.val, r.val, 0] :=
  (by decide +kernel : ∀ (g : Fin 32) (r : Fin 8), ∃ t : Fin grid0.N, win0_4.index t = ![g.val, r.val, 0])

end Cert.KernelIdeal.Blocks

end
-- ==== Proof.Blocks.lean ====
/-
  From the grid points' blocks to the whole output array.

  The kernel's arrays are three [32, 2048, 64] arrays (queries, keys, values: one [2048, 64] matrix per (batch, head)
  pair g) and a [1, 1, 2048, 2048] array of mask words. Grid point (g, r) reads query rows 256 r … 256 r + 255 of pair g,
  all key and value rows of pair g and the whole mask array, of which the body takes the rows from 256 r on, and
  writes rows 256 r … 256 r + 255 of pair g of the output. So the block a point writes is the restriction of ONE
  function of the four arrays — entry (g, s, d) is the attention entry (AttnSpec) of query row (g, s), the key rows
  of g, column d of the values of g and the bits "mask word (s, j) ≠ 0" —, the 32 × 8 blocks tile the output array,
  and after the run the output array is that function.
-/
import proofs.«163237_j21595095564588_1_alg».proof.Proof.Gen.KernelIdeal.Frame
import proofs.«163237_j21595095564588_1_alg».proof.Proof.Piece
import proofs.«163237_j21595095564588_1_alg».proof.Proof.Payload
import proofs.«163237_j21595095564588_1_alg».proof.Proof.GridFacts
import Idealize.ShloMosaic.Lib.Pipeline.Value
import Idealize.ShloMosaic.Lib.ValueIdx
import Idealize.ShloMosaic.Lib.ValueLayout

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Attn

/-- Entry (g, s, d) of the output as a function of the four arrays. -/
def entry (Q K W : S32x2048x64.Idx → EReal) (M : S1x1x2048x2048.Idx → BitVec 32) (g : Fin 32) (s : Fin 2048) (d : Fin 64) : EReal :=
  attn (fun e => Q (ix3 g s e)) (fun j e => K (ix3 g j e)) (fun j => W (ix3 g j d))
    (fun j => IntOp.cmpi .ne (M (ix4 (0 : Fin 1) (0 : Fin 1) s j)) 0#32)

/-- The output array as a function of the four arrays. -/
def whole (Q K W : S32x2048x64.Idx → EReal) (M : S1x1x2048x2048.Idx → BitVec 32) : S32x2048x64.Idx → EReal :=
  fun i => entry Q K W M (i 0) (i 1) (i 2)

/-- The mask rows the body takes at grid coordinates `i`: row p of them is row 256 · i₁ + p of the mask block. -/
theorem maskRows_apply (i : grid0.Coords) (x3 : IVec S1x1x2048x2048 32) (p : Fin 256) (s : Fin 2048)
    (hs : s.val = 256 * (i 1).val + p.val) (j : Fin 2048) :
    Piece.maskRows (F := Ideal) i x3 (ix4 (0 : Fin 1) (0 : Fin 1) p j) = x3 (ix4 (0 : Fin 1) (0 : Fin 1) s j) := by
  show x3 ((Rect.unit (s := S1x1x2048x2048) (k0_off1 i) S1x1x256x2048.size (Facts₀.k0_off1_inb i)).idx (ix4 (0 : Fin 1) (0 : Fin 1) p j)) = _
  refine congrArg x3 (funext fun a => Fin.ext ?_)
  have ho := k0_off1_eq i
  match a with
  | ⟨0, _⟩ => show k0_off1 i 0 + 1 * 0 = 0; rw [ho]; rfl
  | ⟨1, _⟩ => show k0_off1 i 1 + 1 * 0 = 0; rw [ho]; rfl
  | ⟨2, _⟩ => show k0_off1 i 2 + 1 * p.val = s.val; rw [ho, hs]; show 256 * (i 1).val + 1 * p.val = _; omega
  | ⟨3, _⟩ => show k0_off1 i 3 + 1 * j.val = j.val; rw [ho]; show 0 + 1 * j.val = _; omega

/-- ONE GRID POINT, over plain blocks: if the query block holds rows s₀ … of pair g, the key and value blocks the rows
    of pair g and the mask block the mask array, the body's value at (p, d) is the output entry (g, s₀ + p, d). -/
theorem point_eq (Q K W : S32x2048x64.Idx → EReal) (M : S1x1x2048x2048.Idx → BitVec 32)
    (x0 : FVec Ideal S1x256x64 .f32) (x1 x2 : FVec Ideal S1x2048x64 .f32) (x3 : IVec S1x1x2048x2048 32) (i : grid0.Coords)
    (g : Fin 32) (s : Fin 2048) (u : Fin 1) (p : Fin 256) (d : Fin 64)
    (hs : s.val = 256 * (i 1).val + p.val)
    (h0 : ∀ e, x0 (ix3 (0 : Fin 1) p e) = Q (ix3 g s e))
    (h1 : ∀ j e, x1 (ix3 (0 : Fin 1) j e) = K (ix3 g j e))
    (h2 : ∀ j, x2 (ix3 (0 : Fin 1) j d) = W (ix3 g j d))
    (h3 : ∀ s' j, x3 (ix4 (0 : Fin 1) (0 : Fin 1) s' j) = M (ix4 (0 : Fin 1) (0 : Fin 1) s' j)) :
    k0_pay1 (F := Ideal) (k0_pay2 x0 x1 x2 (Piece.maskRows i x3)) (ix3 u p d) = entry Q K W M g s d := by
  show shapeCast S1x256x64 (k0_pay2 (F := Ideal) x0 x1 x2 (Piece.maskRows i x3)) Facts₀.shapeCasts_S256x64_S1x256x64 (ix3 u p d) = _
  rw [shapeCast_ab_1ab_apply, Pay.pay2_apply]
  unfold entry
  simp only [h0, h1, h2, maskRows_apply i x3 p s hs, h3]

variable (m : (ℓ : Loc nD τ sig) → Buf (Elt Ideal) ℓ)

/-- The function of the arrays as the region finds them. -/
abbrev result (c : Dev nD) : S32x2048x64.Idx → EReal :=
  whole (V m c main_v0) (V m c main_v1) (V m c main_v2) (V m c main_v3)

/-- WHAT GRID POINT `t` WRITES BACK is block `t` of that function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold outsAt0
  have e := Piece.out_eq (F := Ideal) c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)
  rw [e]
  obtain ⟨a00, a01, a02, a10, a11, a12, a20, a21, a22, a30, a31, a32, a33, a42, b0, b1, hc⟩ := idx_facts t
  funext y
  obtain ⟨u, p, d, rfl⟩ : ∃ (u : Fin 1) (p : Fin 256) (d : Fin 64), y = ix3 u p d := ⟨y 0, y 1, y 2, eq_ix3 y⟩
  have hp : p.val < 256 := p.isLt
  have hu : u.val = 0 := by omega
  show k0_pay1 (F := Ideal) (k0_pay2 (iblk m c 0 t) (iblk m c 1 t) (iblk m c 2 t) (Piece.maskRows (grid0.coords t) (iblk m c 3 t))) (ix3 u p d)
    = result m c (((cfg0.win 4).blk t).view.emb (ix3 u p d))
  have hs' : win0_4.index t (1 : Fin 3) * 256 + p.val < 2048 := by omega
  have hemb : ((cfg0.win 4).blk t).view.emb (ix3 u p d)
      = ix3 (⟨win0_4.index t (0 : Fin 3), b0⟩ : Fin 32) (⟨win0_4.index t (1 : Fin 3) * 256 + p.val, hs'⟩ : Fin 2048) d := by
    funext a; apply Fin.ext
    match a with
    | ⟨0, _⟩ => show win0_4.index t (0 : Fin 3) * 1 + 1 * u.val = win0_4.index t (0 : Fin 3); omega
    | ⟨1, _⟩ => show win0_4.index t (1 : Fin 3) * 256 + 1 * p.val = win0_4.index t (1 : Fin 3) * 256 + p.val; omega
    | ⟨2, _⟩ => show win0_4.index t (2 : Fin 3) * 64 + 1 * d.val = d.val; omega
  rw [hemb]
  show _ = entry (V m c main_v0) (V m c main_v1) (V m c main_v2) (V m c main_v3)
    (⟨win0_4.index t (0 : Fin 3), b0⟩ : Fin 32) (⟨win0_4.index t (1 : Fin 3) * 256 + p.val, hs'⟩ : Fin 2048) d
  refine point_eq (V m c main_v0) (V m c main_v1) (V m c main_v2) (V m c main_v3)
    (iblk m c 0 t) (iblk m c 1 t) (iblk m c 2 t) (iblk m c 3 t) (grid0.coords t)
    (⟨win0_4.index t (0 : Fin 3), b0⟩ : Fin 32) (⟨win0_4.index t (1 : Fin 3) * 256 + p.val, hs'⟩ : Fin 2048) u p d ?_ ?_ ?_ ?_ ?_
  · show win0_4.index t (1 : Fin 3) * 256 + p.val = 256 * ((grid0.coords t) 1).val + p.val
    omega
  · intro e
    show V m c main_v0 (((cfg0.win 0).blk t).view.emb (ix3 (0 : Fin 1) p e)) = V m c main_v0 _
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 256 + 1 * p.val = win0_4.index t (1 : Fin 3) * 256 + p.val; omega
    | ⟨2, _⟩ => show win0_0.index t (2 : Fin 3) * 64 + 1 * e.val = e.val; omega
  · intro j e
    show V m c main_v1 (((cfg0.win 1).blk t).view.emb (ix3 (0 : Fin 1) j e)) = V m c main_v1 _
    refine congrArg _ (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * j.val = j.val; omega
    | ⟨2, _⟩ => show win0_1.index t (2 : Fin 3) * 64 + 1 * e.val = e.val; omega
  · intro j
    show V m c main_v2 (((cfg0.win 2).blk t).view.emb (ix3 (0 : Fin 1) j d)) = V m c main_v2 _
    refine congrArg _ (funext fun a => Fin.ext ?_)
    match a with
    | ⟨0, _⟩ => show win0_2.index t (0 : Fin 3) * 1 + 1 * 0 = win0_4.index t (0 : Fin 3); omega
    | ⟨1, _⟩ => show win0_2.index t (1 : Fin 3) * 2048 + 1 * j.val = j.val; omega
    | ⟨2, _⟩ => show win0_2.index t (2 : Fin 3) * 64 + 1 * d.val = d.val; omega
  · intro s' j
    show V m c main_v3 (((cfg0.win 3).blk t).view.emb (ix4 (0 : Fin 1) (0 : Fin 1) s' j)) = V m c main_v3 _
    refine congrArg _ (funext fun a => Fin.ext ?_)
    match a with
    | ⟨0, _⟩ => show win0_3.index t (0 : Fin 4) * 1 + 1 * 0 = 0; omega
    | ⟨1, _⟩ => show win0_3.index t (1 : Fin 4) * 1 + 1 * 0 = 0; omega
    | ⟨2, _⟩ => show win0_3.index t (2 : Fin 4) * 2048 + 1 * s'.val = s'.val; omega
    | ⟨3, _⟩ => show win0_3.index t (3 : Fin 4) * 2048 + 1 * j.val = j.val; omega

/-- An index of the output array is in point `t`'s block iff each coordinate is in the block's range on its axis. -/
theorem mem_blk (t : Fin cfg0.N) (i : S32x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v4).slice (win0_4.rect t)).set ↔ _
  rw [View.set_slice_whole, Rect.mem_set_unit]
  exact Iff.rfl

/-- The blocks tile the output array: entry (g, s, d) is in the block of the point at (g, s / 256). -/
theorem cover (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- THE OUTPUT ARRAY AFTER THE RUN is the function of the four arrays as the region finds them. -/
theorem final (c : Dev nD) : (dats m 0 c).arrAt 4 cfg0.N = result m c :=
  (dats m 0 c).arrAt_eq_of_cover 4 (result m c) (fun t _ => flushed_eq m c t) cover

end Cert.KernelIdeal.Blocks

end
-- ==== Proof.AttnArray.lean ====
/-
  The attention output as ONE function of the four argument arrays q, k, v : [2, 16, 2048, 64] and
  mask : [1, 1, 2048, 2048] (bits): entry (b, h, s, d) is the attention entry (AttnSpec) of query row (b, h, s),
  the key rows of (b, h), column d of the values of (b, h) and row s of the mask.

  Also here: merging the two leading axes [2, 16] into one axis [32] and splitting it again moves entry (b, h, …)
  to (16 b + h, …) and back, both being the same row-major position.
-/
import proofs.«163237_j21595095564588_1_alg».proof.Proof.AttnSpec
import Idealize.ShloMosaic.Lib.Pipeline.Value
import Idealize.ShloMosaic.Lib.ValueIdx

noncomputable section

namespace Cert.Attn

open Idealize.ShloMosaic Idealize.ShloMosaic.ValueIdx

/-- The output array of the attention. -/
def out (q k v : (⟨4, ![2, 16, 2048, 64]⟩ : Shape).Idx → EReal) (mask : (⟨4, ![1, 1, 2048, 2048]⟩ : Shape).Idx → BitVec 1) :
    (⟨4, ![2, 16, 2048, 64]⟩ : Shape).Idx → EReal := fun i =>
  attn (fun e => q (ix4 (i 0) (i 1) (i 2) e)) (fun j e => k (ix4 (i 0) (i 1) j e)) (fun j => v (ix4 (i 0) (i 1) j (i 3)))
    (fun j => mask (ix4 (0 : Fin 1) (0 : Fin 1) (i 2) j))

variable {α : Type}

/-- [2, 16, 2048, 64] viewed as [32, 2048, 64] reads (b, h, s, e) at (16 b + h, s, e). -/
theorem merge_apply (x : (⟨4, ![2, 16, 2048, 64]⟩ : Shape).Idx → α)
    (hc : (⟨4, ![2, 16, 2048, 64]⟩ : Shape).ShapeCasts ⟨3, ![32, 2048, 64]⟩)
    (b : Fin 2) (h : Fin 16) (g : Fin 32) (hg : g.val = 16 * b.val + h.val) (s : Fin 2048) (e : Fin 64) :
    shapeCast ⟨3, ![32, 2048, 64]⟩ x hc (ix3 g s e) = x (ix4 b h s e) :=
  shapeCast_apply x hc _ _ (by
    rw [Shape.rowMajor_val_four, Shape.rowMajor_val_three]
    show ((b.val * 16 + h.val) * 2048 + s.val) * 64 + e.val = (g.val * 2048 + s.val) * 64 + e.val
    rw [hg]; omega)

/-- [32, 2048, 64] viewed as [2, 16, 2048, 64] reads (16 b + h, s, e) at (b, h, s, e). -/
theorem split_apply (y : (⟨3, ![32, 2048, 64]⟩ : Shape).Idx → α)
    (hc : (⟨3, ![32, 2048, 64]⟩ : Shape).ShapeCasts ⟨4, ![2, 16, 2048, 64]⟩)
    (b : Fin 2) (h : Fin 16) (g : Fin 32) (hg : g.val = 16 * b.val + h.val) (s : Fin 2048) (e : Fin 64) :
    shapeCast ⟨4, ![2, 16, 2048, 64]⟩ y hc (ix4 b h s e) = y (ix3 g s e) :=
  shapeCast_apply y hc _ _ (by
    rw [Shape.rowMajor_val_four, Shape.rowMajor_val_three]
    show (g.val * 2048 + s.val) * 64 + e.val = ((b.val * 16 + h.val) * 2048 + s.val) * 64 + e.val
    rw [hg]; omega)

end Cert.Attn

end
-- ==== Proof.KernelRun.lean ====
/-
  The kernel's whole program: its result array is the attention output array of its arguments.

  Before the region the program views q, k and v as [32, 2048, 64] arrays (pair g = 16 b + h) and widens the mask
  bits to 32-bit words; the region leaves the output array at the function of those four arrays (Blocks); after it
  the program views the output as [2, 16, 2048, 64] again. Entry (b, h, s, d) of the result is therefore the
  entry (16 b + h, s, d) of that function, whose query row, key rows and value column are those of (b, h) in
  q, k, v, and whose mask bits "widened word ≠ 0" are the mask bits themselves.
-/
import proofs.«163237_j21595095564588_1_alg».proof.Proof.Gen.KernelIdeal.Frame
import proofs.«163237_j21595095564588_1_alg».proof.Proof.Blocks
import proofs.«163237_j21595095564588_1_alg».proof.Proof.AttnArray
import Idealize.ShloMosaic.Lib.Pipeline.Value
import Idealize.ShloMosaic.Lib.StableHlo.Run
import Idealize.ShloMosaic.Lib.Tactic
import Idealize.ShloMosaic.Lib.ValueIdx

noncomputable section

open scoped BigOperators

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-- The region finds the queries as the [32, 2048, 64] view of q, -/
theorem V_v0 (c : Dev nD) : (V m c main_v0 : S32x2048x64.Idx → EReal)
    = shapeCast S32x2048x64 (m ((c : Thread nD τ).loc main_arg0)) Facts₀.shapeCasts_S2x16x2048x64_S32x2048x64 := by
  show StableHlo.after hostOps0 (fun b => m (c, b)) (Proc.devRef .tc main_v0) = _
  after_results
  rfl

/-- the keys as that of k, -/
theorem V_v1 (c : Dev nD) : (V m c main_v1 : S32x2048x64.Idx → EReal)
    = shapeCast S32x2048x64 (m ((c : Thread nD τ).loc main_arg1)) Facts₀.shapeCasts_S2x16x2048x64_S32x2048x64 := by
  show StableHlo.after hostOps0 (fun b => m (c, b)) (Proc.devRef .tc main_v1) = _
  after_results
  rfl

/-- the values as that of v, -/
theorem V_v2 (c : Dev nD) : (V m c main_v2 : S32x2048x64.Idx → EReal)
    = shapeCast S32x2048x64 (m ((c : Thread nD τ).loc main_arg2)) Facts₀.shapeCasts_S2x16x2048x64_S32x2048x64 := by
  show StableHlo.after hostOps0 (fun b => m (c, b)) (Proc.devRef .tc main_v2) = _
  after_results
  rfl

/-- and the mask words as the mask bits widened. -/
theorem V_v3 (c : Dev nD) : (V m c main_v3 : S1x1x2048x2048.Idx → BitVec 32)
    = extui 32 (m ((c : Thread nD τ).loc main_arg3)) Facts₀.natLt_1_32 := by
  show StableHlo.after hostOps0 (fun b => m (c, b)) (Proc.devRef .tc main_v3) = _
  after_results

/-- After the region the result is the [2, 16, 2048, 64] view of the output array. -/
theorem tail_v5 (c : Dev nD) :
    (Pipeline.afterTail₀ cfgs (dats m) 0 (V0 m) [hostOps1] c main_v5 : S2x16x2048x64.Idx → EReal)
      = shapeCast S2x16x2048x64 (Blocks.result m c) Facts₀.shapeCasts_S32x2048x64_S2x16x2048x64 := by
  unfold Pipeline.afterTail₀
  show StableHlo.after hostOps1 _ (Proc.devRef .tc main_v5) = _
  after_results
  have hw := (Pipeline.withArrays_arr (cfgs 0).spec launch0.win.arr_inj c (V0 m c)
    (fun w => (dats m 0 c).arrAt w (cfgs 0).N) 4).trans (Blocks.final m c)
  exact congrArg (fun X : S32x2048x64.Idx → EReal =>
    shapeCast S2x16x2048x64 X Facts₀.shapeCasts_S32x2048x64_S2x16x2048x64) hw

/-- THE RESULT, entry by entry, is the attention output array of the arguments. -/
theorem result_eq (c : Dev nD) :
    (Pipeline.afterTail₀ cfgs (dats m) 0 (V0 m) [hostOps1] c main_v5 : S2x16x2048x64.Idx → EReal)
      = out (m ((c : Thread nD τ).loc main_arg0)) (m ((c : Thread nD τ).loc main_arg1))
          (m ((c : Thread nD τ).loc main_arg2)) (m ((c : Thread nD τ).loc main_arg3)) := by
  rw [tail_v5]
  funext i
  obtain ⟨b, h, s, d, rfl⟩ : ∃ (b : Fin 2) (h : Fin 16) (s : Fin 2048) (d : Fin 64), i = ix4 b h s d :=
    ⟨i 0, i 1, i 2, i 3, eq_ix4 i⟩
  have hb : b.val < 2 := b.isLt
  have hh : h.val < 16 := h.isLt
  have hg : (⟨16 * b.val + h.val, by omega⟩ : Fin 32).val = 16 * b.val + h.val := rfl
  rw [split_apply _ _ b h ⟨16 * b.val + h.val, by omega⟩ hg s d]
  show Blocks.entry (V m c main_v0) (V m c main_v1) (V m c main_v2) (V m c main_v3) ⟨16 * b.val + h.val, by omega⟩ s d
    = attn (fun e => m ((c : Thread nD τ).loc main_arg0) (ix4 b h s e)) (fun j e => m ((c : Thread nD τ).loc main_arg1) (ix4 b h j e))
        (fun j => m ((c : Thread nD τ).loc main_arg2) (ix4 b h j d)) (fun j => m ((c : Thread nD τ).loc main_arg3) (ix4 (0 : Fin 1) (0 : Fin 1) s j))
  unfold Blocks.entry
  rw [V_v0, V_v1, V_v2, V_v3]
  simp only [merge_apply _ _ b h ⟨16 * b.val + h.val, by omega⟩ hg, extui_apply, ne_zero_widen]

/-- THE RUN, READ: every weakly fair execution terminates with the result array at the attention output array of the
    argument arrays, the arguments unchanged. -/
theorem run : θ_run defs (onTc (τ := τ) (main (F := Ideal))) ⟨m, fun _ => 0, ρ⟩ fun r => ∀ c : Dev nD,
      r.2.mem ((c.tc : Thread nD τ).loc main_v5)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefSide.lean ====
/-
  The reference is the attention output array.

  Read one operation at a time the reference computes, at (b, h, s, d), the sum over j of its masked scaled score
  of query row (b, h, s) against key row (b, h, j) times v (b, h, j, d). Its row normalisation is the quotient by
  zero plus the sum of the absolute values — the row's L1 norm —, its scale is the quotient by the square root of
  64, which is the product with 0.125 (AttnSpec), and its mask is the mask bit itself.
-/
import proofs.«163237_j21595095564588_1_alg».proof.Proof.Gen.ReferenceIdeal.Read
import proofs.«163237_j21595095564588_1_alg».proof.Proof.AttnSpec
import proofs.«163237_j21595095564588_1_alg».proof.Proof.AttnArray
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.Attn

/-- The reference's normalised queries at (b, h, s, e). -/
theorem unit_q (x : FVec Ideal S2x16x2048x64 .f32) (b : Fin 2) (h : Fin 16) (s : Fin 2048) (e : Fin 64) :
    val_main_v7 (F := Ideal) x (ix4 b h s e) = unit1 (fun e => x (ix4 b h s e)) e := by
  rw [val_main_v7_apply, val_main_v6_apply, val_main_v2_apply, val_main_v1_apply, val_main_cst_apply]
  show Ideal.div _ (Ideal.ofBits .f32 0x00000000#32 + _) = Ideal.div _ _
  rw [Ideal.ofBits_zero_f32, zero_add]
  unfold l1
  refine congrArg _ (Finset.sum_congr rfl fun k _ => ?_)
  rw [val_main_v0_apply]
  have ei : idx_main_v1 (idx_main_v2 (idx_main_v6 (ix4 b h s e))) k = ix4 b h s k :=
    funext fun a => Fin.ext (by match a with | ⟨0, _⟩ => rfl | ⟨1, _⟩ => rfl | ⟨2, _⟩ => rfl | ⟨3, _⟩ => rfl)
  rw [ei]
  rfl

/-- The reference's normalised keys at (b, h, j, e). -/
theorem unit_k (x : FVec Ideal S2x16x2048x64 .f32) (b : Fin 2) (h : Fin 16) (j : Fin 2048) (e : Fin 64) :
    val_main_v9 (F := Ideal) x (ix4 b h j e) = unit1 (fun e => x (ix4 b h j e)) e := by
  rw [val_main_v9_apply, val_main_v8_apply, val_main_v5_apply, val_main_v4_apply, val_main_cst_0_apply]
  show Ideal.div _ (Ideal.ofBits .f32 0x00000000#32 + _) = Ideal.div _ _
  rw [Ideal.ofBits_zero_f32, zero_add]
  unfold l1
  refine congrArg _ (Finset.sum_congr rfl fun k _ => ?_)
  rw [val_main_v3_apply]
  have ei : idx_main_v4 (idx_main_v5 (idx_main_v8 (ix4 b h j e))) k = ix4 b h j k :=
    funext fun a => Fin.ext (by match a with | ⟨0, _⟩ => rfl | ⟨1, _⟩ => rfl | ⟨2, _⟩ => rfl | ⟨3, _⟩ => rfl)
  rw [ei]
  rfl

/-- The reference's weight at (b, h, s, j). -/
theorem weight_ref (x0 x1 : FVec Ideal S2x16x2048x64 .f32) (x3 : IVec S1x1x2048x2048 1)
    (b : Fin 2) (h : Fin 16) (s : Fin 2048) (j : Fin 2048) :
    val_main_v14 (F := Ideal) x0 x1 x3 (ix4 b h s j)
      = weight (fun e => x0 (ix4 b h s e)) (fun j e => x1 (ix4 b h j e)) (fun j => x3 (ix4 (0 : Fin 1) (0 : Fin 1) s j)) j := by
  rw [val_main_v14_apply, val_main_call0_v0_apply, val_main_v13_apply, val_main_call0_v1_apply, val_main_cst_2_apply,
    val_main_v12_apply, val_main_v11_apply, val_main_cst_1_apply, val_main_v10_apply]
  have em : idx_main_call0_v0 (ix4 b h s j) = ix4 (0 : Fin 1) (0 : Fin 1) s j :=
    funext fun a => Fin.ext (by match a with | ⟨0, _⟩ => rfl | ⟨1, _⟩ => rfl | ⟨2, _⟩ => rfl | ⟨3, _⟩ => rfl)
  have el : ∀ k : Fin 64, lidx_main_v10 (ix4 b h s j) k = ix4 b h s k := fun k =>
    funext fun a => Fin.ext (by match a with | ⟨0, _⟩ => rfl | ⟨1, _⟩ => rfl | ⟨2, _⟩ => rfl | ⟨3, _⟩ => rfl)
  have er : ∀ k : Fin 64, ridx_main_v10 (ix4 b h s j) k = ix4 b h j k := fun k =>
    funext fun a => Fin.ext (by match a with | ⟨0, _⟩ => rfl | ⟨1, _⟩ => rfl | ⟨2, _⟩ => rfl | ⟨3, _⟩ => rfl)
  simp only [em, el, er, unit_q, unit_k]
  unfold weight score
  show Scalar.select _ (Ideal.div _ (Ideal.sqrt (Ideal.ofBits .f32 0x42800000#32))) (Ideal.ofBits .f32 0xC61C4000#32) = _
  rw [div_sqrt_64]

/-- THE REFERENCE'S RESULT is the attention output array of its arguments. -/
theorem result_eq (x0 x1 x2 : FVec Ideal S2x16x2048x64 .f32) (x3 : IVec S1x1x2048x2048 1) :
    val_main_v15 (F := Ideal) x0 x1 x2 x3 = out x0 x1 x2 x3 := by
  funext i
  obtain ⟨b, h, s, d, rfl⟩ : ∃ (b : Fin 2) (h : Fin 16) (s : Fin 2048) (d : Fin 64), i = ix4 b h s d :=
    ⟨i 0, i 1, i 2, i 3, eq_ix4 i⟩
  rw [val_main_v15_apply]
  show _ = attn (fun e => x0 (ix4 b h s e)) (fun j e => x1 (ix4 b h j e)) (fun j => x2 (ix4 b h j d))
    (fun j => x3 (ix4 (0 : Fin 1) (0 : Fin 1) s j))
  unfold attn
  refine Finset.sum_congr rfl fun j _ => ?_
  have el : lidx_main_v15 (ix4 b h s d) j = ix4 b h s j :=
    funext fun a => Fin.ext (by match a with | ⟨0, _⟩ => rfl | ⟨1, _⟩ => rfl | ⟨2, _⟩ => rfl | ⟨3, _⟩ => rfl)
  have er : ridx_main_v15 (ix4 b h s d) j = ix4 b h j d :=
    funext fun a => Fin.ext (by match a with | ⟨0, _⟩ => rfl | ⟨1, _⟩ => rfl | ⟨2, _⟩ => rfl | ⟨3, _⟩ => rfl)
  rw [el, er, weight_ref]

end Cert.ReferenceIdeal.RefValue

end
-- ==== Proof.lean ====
/-
  Attention without a softmax, with L1-normalised queries and keys and a mask: the kernel equals its reference over
  the extended reals.

  Both programs compute, for q, k, v : [2, 16, 2048, 64] and a mask of bits [1, 1, 2048, 2048], the array whose
  entry (b, h, s, d) is  Σ_j  w(s, j) · v(b, h, j, d),  where  w(s, j)  is  (Σ_e  q̂(b,h,s,e) · k̂(b,h,j,e)) · (1/8)
  where the mask bit (s, j) is set and -10000 where it is not, and  x̂  is  x  divided by the sum of the absolute
  values of its row (Proof/AttnSpec.lean, Proof/AttnArray.lean).

  The kernel computes it one block of 256 query rows of one (batch, head) pair at a time: its narrowings to a
  shorter float format are the identity on the extended reals, its two matrix products are plain sums of products,
  it multiplies by the word of 0.125 and it tests the widened mask words against zero (Proof/Payload.lean, one grid
  point; Proof/Piece.lean, Proof/Blocks.lean, the blocks tile the output; Proof/KernelRun.lean, the reshapes around
  the region). The reference divides by the square root of 64 and selects by the mask bit (Proof/RefSide.lean). The
  two meet because the root of 64 is 8 and 0.125 is exactly 1/8, so the quotient and the product are one function of
  every extended real; no sum is reordered and nothing needs the inputs to be finite.
-/
import proofs.«163237_j21595095564588_1_alg».proof.Defs
import proofs.«163237_j21595095564588_1_alg».proof.Proof.Gen.Kernel
import proofs.«163237_j21595095564588_1_alg».proof.Proof.Gen.Kernel.Skeleton
import proofs.«163237_j21595095564588_1_alg».proof.Proof.Gen.Kernel.Launch
import proofs.«163237_j21595095564588_1_alg».proof.Proof.Gen.Kernel.Points
import proofs.«163237_j21595095564588_1_alg».proof.Proof.Gen.Kernel.Frame
import proofs.«163237_j21595095564588_1_alg».proof.Proof.Gen.KernelIdeal
import proofs.«163237_j21595095564588_1_alg».proof.Proof.Gen.KernelIdeal.Skeleton
import proofs.«163237_j21595095564588_1_alg».proof.Proof.Gen.KernelIdeal.Launch
import proofs.«163237_j21595095564588_1_alg».proof.Proof.Gen.KernelIdeal.Points
import proofs.«163237_j21595095564588_1_alg».proof.Proof.Gen.KernelIdeal.Frame
import proofs.«163237_j21595095564588_1_alg».proof.Proof.Gen.ReferenceIdeal
import proofs.«163237_j21595095564588_1_alg».proof.Proof.Gen.ReferenceIdeal.Run
import proofs.«163237_j21595095564588_1_alg».proof.Proof.Gen.ReferenceIdeal.Read
import proofs.«163237_j21595095564588_1_alg».proof.Proof.Gen.Pre_finite_inputs
import proofs.«163237_j21595095564588_1_alg».proof.Proof.KernelRun
import proofs.«163237_j21595095564588_1_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on q, k, v and the mask, both programs end with the attention output array of them. -/
theorem algebraic : Cert.algebraic_KernelIdeal_ReferenceIdeal := by
  intro m ρ m' ρ' _ hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
